-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S4x2048x1024 .f32) (main_arg1 : FVec F S8x1024x2048 .f32) (main_arg2 : FVec F S8x2048 .f32) (main_arg3 : FVec F S8x2048x1024 .f32) (main_arg4 : FVec F S8x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_v13 main_v16
-- ==== Kernel.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S32x256x1024 : Shape := ⟨3, ![32, 256, 1024]⟩
abbrev S8x1x2048 : Shape := ⟨3, ![8, 1, 2048]⟩
abbrev S8x1x1024 : Shape := ⟨3, ![8, 1, 1024]⟩
abbrev S1x256x1024 : Shape := ⟨3, ![1, 256, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S2x256x2048 : Shape := ⟨3, ![2, 256, 2048]⟩
abbrev S1x256x2048 : Shape := ⟨3, ![1, 256, 2048]⟩
abbrev S256x2048 : Shape := ⟨2, ![256, 2048]⟩
abbrev S2048x1024 : Shape := ⟨2, ![2048, 1024]⟩
abbrev S256x1024 : Shape := ⟨2, ![256, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S32x256x1024, .f32⟩
  | .hbm, ⟨6, _⟩ => ⟨S8x1x2048, .f32⟩
  | .hbm, ⟨7, _⟩ => ⟨S8x1x1024, .f32⟩
  | .hbm, ⟨8, _⟩ => ⟨S32x256x1024, .f32⟩
  | .hbm, ⟨9, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1024, .f32⟩
  | .local _ .vmem, ⟨7, _⟩ => ⟨S1x2048x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S2x256x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let v7 : BitVec 32 := Scalar.remsi v6 c2_i32
  let v8 : Index := Scalar.indexCast v7
  let c0 : Index := 0#32
  let c0_2 : Index := 0#32
  ![v8.toNat, 0, 0]
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c2_i32 : BitVec 32 := 2#32
  let v18 : BitVec 32 := Scalar.remsi arg0 c2_i32
  let v19 : Index := Scalar.indexCast v18
  let c0_11 : Index := 0#32
  let c0_12 : Index := 0#32
  ![v19.toNat, 0, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S32x256x1024 : S4x2048x1024.ShapeCasts S32x256x1024
  shapeCasts_S8x2048_S8x1x2048 : S8x2048.ShapeCasts S8x1x2048
  shapeCasts_S8x1024_S8x1x1024 : S8x1024.ShapeCasts S8x1x1024
  h_S1x256x2048 : 0 < S1x256x2048.numel
  shapeCasts_S1x256x2048_S256x2048 : S1x256x2048.ShapeCasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  shapeCasts_S256x2048_S1x256x2048 : S256x2048.ShapeCasts S1x256x2048
  shapeCasts_S32x256x1024_S4x2048x1024 : S32x256x1024.ShapeCasts S4x2048x1024
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  k0_off1_inb : ∀ i : grid0.Coords, ∀ (k0_h1 : k0_cond1 i = 1#1), ∀ a, (k0_off1 i) a + S1x256x2048.size a ≤ S2x256x2048.size a
  k0_off2_inb : ∀ i : grid0.Coords, ∀ (k0_h2 : k0_cond2 i = 1#1), ∀ a, (k0_off2 i) a + S1x256x2048.size a ≤ S2x256x2048.size a
  k0_off2_packedbf16 : ∀ i : grid0.Coords, ∀ (k0_h2 : k0_cond2 i = 1#1), (Rect.unit (s := S2x256x2048) (k0_off2 i) S1x256x2048.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .f32 = 32 ∨ (Rect.block (s := S8x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S32x256x1024.size a
  hwx0_5 : ∀ i : grid0.Coords, EltTy.bits .f32 = 32 ∨ (Rect.block (s := S32x256x1024) S1x256x1024.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8192x1024 : Shape := ⟨2, ![8192, 1024]⟩
abbrev S8x1024x1024 : Shape := ⟨3, ![8, 1024, 1024]⟩
abbrev S8x1x2048 : Shape := ⟨3, ![8, 1, 2048]⟩
abbrev S_ : Shape := ⟨0, ![]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S8192x1024, .f32⟩
  | .hbm, ⟨6, _⟩ => ⟨S8x1024x1024, .f32⟩
  | .hbm, ⟨7, _⟩ => ⟨S8x1024x2048, .f32⟩
  | .hbm, ⟨8, _⟩ => ⟨S8x1x2048, .f32⟩
  | .hbm, ⟨9, _⟩ => ⟨S8x1024x2048, .f32⟩
  | .hbm, ⟨10, _⟩ => ⟨S8x1024x2048, .f32⟩
  | .hbm, ⟨11, _⟩ => ⟨S_, .f32⟩
  | .hbm, ⟨12, _⟩ => ⟨S8x1024x2048, .f32⟩
  | .hbm, ⟨13, _⟩ => ⟨S8x1024x2048, .f32⟩
  | .hbm, ⟨14, _⟩ => ⟨S8x1024x1024, .f32⟩
  | .hbm, ⟨15, _⟩ => ⟨S8x1x1024, .f32⟩
  | .hbm, ⟨16, _⟩ => ⟨S8x1024x1024, .f32⟩
  | .hbm, ⟨17, _⟩ => ⟨S8x1024x1024, .f32⟩
  | .hbm, ⟨18, _⟩ => ⟨S8192x1024, .f32⟩
  | .hbm, ⟨19, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S8192x1024_S8x1024x1024 : S8192x1024.ShapeCasts S8x1024x1024
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  bcast_S_S8x1024x2048 : S_.BroadcastsInDim S8x1024x2048 (![] : Fin 0 → Fin S8x1024x2048.rank)
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  shapeCasts_S8x1024x1024_S8192x1024 : S8x1024x1024.ShapeCasts S8192x1024
  shapeCasts_S8192x1024_S4x2048x1024 : S8192x1024.ShapeCasts S4x2048x1024
  dot_S8x1024x1024_S8x1024x2048_S8x1024x2048_2_1_1_2_0_0_wf : DotDims.WF S8x1024x1024 S8x1024x2048 S8x1024x2048 [2] [1] [1] [2] [0] [0]
  dot_S8x1024x2048_S8x2048x1024_S8x1024x1024_2_1_1_2_0_0_wf : DotDims.WF S8x1024x2048 S8x2048x1024 S8x1024x1024 [2] [1] [1] [2] [0] [0]

variable [Facts₀]

def dot_S8x1024x1024_S8x1024x2048_S8x1024x2048_2_1_1_2_0_0 : DotDims S8x1024x1024 S8x1024x2048 S8x1024x2048 where
  lhsContracting := [2]
  rhsContracting := [1]
  lhsNonContracting := [1]
  rhsNonContracting := [2]
  lhsBatch := [0]
  rhsBatch := [0]
  wf := dot_S8x1024x1024_S8x1024x2048_S8x1024x2048_2_1_1_2_0_0_wf
def dot_S8x1024x2048_S8x2048x1024_S8x1024x1024_2_1_1_2_0_0 : DotDims S8x1024x2048 S8x2048x1024 S8x1024x1024 where
  lhsContracting := [2]
  rhsContracting := [1]
  lhsNonContracting := [1]
  rhsNonContracting := [2]
  lhsBatch := [0]
  rhsBatch := [0]
  wf := dot_S8x1024x2048_S8x2048x1024_S8x1024x1024_2_1_1_2_0_0_wf

class Facts : Prop extends Facts₀ where

variable [Facts]
-- ==== Proof.BitsBody.Sched.lean ====
/-
  The schedule of the one pallas_call, decided once over its 33 grid points.

  Point `t` computes the hidden tile `t` (when `t < 32`) into slot `t % 2` of the two-slot scratch, and
  (when `1 ≤ t`) reads the hidden tile `t - 1` back from slot `(t + 1) % 2` to produce the output tile `t - 1`.
  Here: the two conditions in closed form, the two slot offsets in closed form, where the output window is idle,
  and the scratch slots as rectangles of the scratch buffer.
-/
import proofs.«150185_g12489764897382_cont_sun_c4_646_23_alg».proof.Proof.Gen.Kernel.Frame
import proofs.«150185_g12489764897382_cont_sun_c4_646_23_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions and the two slot offsets, over the grid -/

/-- The second layer runs from point 1 on. -/
theorem cond1_iff : ∀ t : Fin cfg0.N, k0_cond1 (grid0.coords t) = 1#1 ↔ 1 ≤ t.val :=
  (by decide +kernel : ∀ t : Fin grid0.N, k0_cond1 (grid0.coords t) = 1#1 ↔ 1 ≤ t.val)

/-- The first layer runs before point 32. -/
theorem cond2_iff : ∀ t : Fin cfg0.N, k0_cond2 (grid0.coords t) = 1#1 ↔ t.val < 32 :=
  (by decide +kernel : ∀ t : Fin grid0.N, k0_cond2 (grid0.coords t) = 1#1 ↔ t.val < 32)

/-- The slot the second layer reads at point `t`: the other one than the first layer writes there. -/
theorem off1_eq : ∀ t : Fin cfg0.N, k0_off1 (grid0.coords t) = ![(t.val + 1) % 2, 0, 0] :=
  (by decide +kernel : ∀ t : Fin grid0.N, k0_off1 (grid0.coords t) = ![(t.val + 1) % 2, 0, 0])

/-- The slot the first layer writes at point `t`. -/
theorem off2_eq : ∀ t : Fin cfg0.N, k0_off2 (grid0.coords t) = ![t.val % 2, 0, 0] :=
  (by decide +kernel : ∀ t : Fin grid0.N, k0_off2 (grid0.coords t) = ![t.val % 2, 0, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is live from point 1 on, -/
theorem live5 : ∀ t : Fin cfg0.N, 1 ≤ t.val → cfg0.idle 5 (grid0.coords t) = false := by decide +kernel
/-- idle at point 0, -/
theorem idle5 : ∀ t : Fin cfg0.N, t.val = 0 → cfg0.idle 5 (grid0.coords t) = true := by decide +kernel
/-- and point 0 writes nothing back. -/
theorem noFlush5 : ∀ t : Fin cfg0.N, t.val = 0 → (cfg0.win 5).flush t = false := by decide +kernel

/-! ## The staging memrefs at a point, and the scratch -/

abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1024 .f32 := win0_5.stage (cfg0.slots t 5)
abbrev hs5 (t : Fin cfg0.N) : (ms5 t).IsWhole := hstage0_5 ((cfg0.slots t 5).cast nbuf0_5)
/-- The two-slot scratch, a whole buffer of the kernel's own. -/
abbrev scM : Memref sig .tc .vmem S2x256x2048 .bf16 := Memref.whole cc0_scratch0

/-- What the launch hands the body besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The scratch slots as rectangles -/

/-- Slot `p` of the scratch: the `[1,256,2048]` rectangle at offset `p` along the leading axis. -/
def slotRect (p : Fin 2) : Rect S2x256x2048 :=
  Rect.unit (s := S2x256x2048) ![p.val, 0, 0] S1x256x2048.size (by
    intro a; have := p.isLt
    match a with
    | ⟨0, _⟩ => show p.val + 1 ≤ 2; omega
    | ⟨1, _⟩ => show 0 + 256 ≤ 256; omega
    | ⟨2, _⟩ => show 0 + 2048 ≤ 2048; omega)

/-- A unit rectangle of a slot's size at the slot's offset is the slot, whatever its bounds proof. -/
theorem unit_eq_slot (p : Fin 2) {off : Fin 3 → Nat} (h : off = ![p.val, 0, 0])
    (inb : ∀ a, off a + S1x256x2048.size a ≤ S2x256x2048.size a) :
    Rect.unit (s := S2x256x2048) off S1x256x2048.size inb = slotRect p := by
  subst h; rfl

end Cert.Kernel.Body

end
-- ==== Proof.BitsBody.Runs.lean ====
/-
  The kernel body at one grid point, in each of the three cases the two conditions leave, with what it
  stores stated through the payload functions.

  * first point (only the first layer runs): the scratch, at any contents, ends with the written slot
    holding the hidden tile computed from the three input blocks; the output buffer is handed back untouched;
  * middle points (both layers run): the output buffer ends holding the second layer's payload of the slot read
    and of the two weight blocks, and the scratch ends with the written slot holding the new hidden tile;
  * last point (only the second layer runs): the output buffer likewise, the scratch unchanged.
  In every case the five input buffers are handed back as found.  All three hold at any float instance.
-/
import proofs.«150185_g12489764897382_cont_sun_c4_646_23_alg».proof.Proof.BitsBody.Sched
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three zero offsets, as the constant function the whole-buffer lemmas ask for. -/
theorem zero3 : (![0, 0, 0] : Fin 3 → Nat) = fun _ => 0 := by
  funext a; match a with
  | ⟨0, _⟩ => rfl
  | ⟨1, _⟩ => rfl
  | ⟨2, _⟩ => rfl

set_option maxHeartbeats 1000000 in
/-- Both layers run. -/
theorem runMid (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : k0_cond1 i = 1#1) (hc1 : k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld xs (Rect.unit (s := S2x256x2048) (k0_off1 i) S1x256x2048.size (k0_off1_inb i hc0))) x3 x4)
                ∗ (∃ d, ⌜View.ld d (Rect.unit (s := S2x256x2048) (k0_off2 i) S1x256x2048.size (k0_off2_inb i hc1)) = k0_pay2 x0 x1 x2⌝ ∗ owns (c : Thread nD τ) arg7 fullShare d)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero zero3 inb_S1x256x1024_S1x256x1024_0_0_0 y⟩), View.canon_unit_zero zero3]
      simp only [View.readAt_eq_ld, harg7.read_unread, harg4.read_unread, harg5.read_unread,
        View.ld_unit_zero (S := S1x2048x1024) zero3, View.ld_unit_zero (S := S1x1x1024) zero3]
    iexists _; isplitr; swap
    · iexists _; isplitr; swap; · iexact HS
      ipureintro; rfl
    ipureintro
    funext y
    refine (View.read_writes_cons_emb _ _ _ _ _ y).trans ?_
    simp only [View.readAt_eq_ld, harg1.read_unread, harg2.read_unread, harg3.read_unread,
      View.ld_unit_zero (S := S1x256x1024) zero3, View.ld_unit_zero (S := S1x1024x2048) zero3, View.ld_unit_zero (S := S1x1x2048) zero3]

set_option maxHeartbeats 1000000 in
/-- Only the first layer runs: the output buffer is not touched. -/
theorem runFirst (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : ¬k0_cond1 i = 1#1) (hc1 : k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) (x5 : Vec F S1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare x5
                ∗ (∃ d, ⌜View.ld d (Rect.unit (s := S2x256x2048) (k0_off2 i) S1x256x2048.size (k0_off2_inb i hc1)) = k0_pay2 x0 x1 x2⌝ ∗ owns (c : Thread nD τ) arg7 fullShare d)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    iexists _; isplitr; swap
    · iexists _; isplitr; swap; · iexact HS
      ipureintro; rfl
    ipureintro
    funext y
    refine (View.read_writes_cons_emb _ _ _ _ _ y).trans ?_
    simp only [View.readAt_eq_ld, harg1.read_unread, harg2.read_unread, harg3.read_unread,
      View.ld_unit_zero (S := S1x256x1024) zero3, View.ld_unit_zero (S := S1x1024x2048) zero3, View.ld_unit_zero (S := S1x1x2048) zero3]

set_option maxHeartbeats 1000000 in
/-- Only the second layer runs: the scratch is not written. -/
theorem runLast (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : k0_cond1 i = 1#1) (hc1 : ¬k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld xs (Rect.unit (s := S2x256x2048) (k0_off1 i) S1x256x2048.size (k0_off1_inb i hc0))) x3 x4)
                ∗ owns (c : Thread nD τ) arg7 fullShare xs) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero zero3 inb_S1x256x1024_S1x256x1024_0_0_0 y⟩), View.canon_unit_zero zero3]
      simp only [View.readAt_eq_ld, harg7.read_unread, harg4.read_unread, harg5.read_unread,
        View.ld_unit_zero (S := S1x2048x1024) zero3, View.ld_unit_zero (S := S1x1x1024) zero3]
    iexists _; isplitr; swap; · iexact HS
    ipureintro; exact harg7.read_unread _

end Cert.Kernel.Body

end
-- ==== Proof.BitsBody.Data.lean ====
/-
  The proof data of the pipeline and the body obligation at every grid point.

  The hidden tile of point `n` is the first layer's payload of the three input blocks at `n`; what point `t ≥ 1`
  leaves in the output buffer is the second layer's payload of the hidden tile of point `t - 1` and of the two
  weight blocks at `t`.  Between points the scratch is carried: after point `n < 32` its slot `n % 2` holds the
  hidden tile of point `n` (the other slot holds something the invariant does not name), which is exactly the
  slot point `n + 1` reads, because `(n + 2) % 2 = n % 2`.  Point 0 stores nothing into the output buffer and the
  pipeline does not write it back there; points 1 to 32 overwrite it wholly.
-/
import proofs.«150185_g12489764897382_cont_sun_c4_646_23_alg».proof.Proof.BitsBody.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Slots read through either spelling of their rectangle -/

theorem ld_slot_of_unit (d : Vec F S2x256x2048 .bf16) (p : Fin 2) {off : Fin 3 → Nat} (h : off = ![p.val, 0, 0])
    (inb : ∀ a, off a + S1x256x2048.size a ≤ S2x256x2048.size a) (X : Vec F S1x256x2048 .bf16)
    (hX : View.ld d (Rect.unit (s := S2x256x2048) off S1x256x2048.size inb) = X) : View.ld d (slotRect p) = X := by
  subst h; exact hX

theorem ld_unit_of_slot (d : Vec F S2x256x2048 .bf16) (p : Fin 2) {off : Fin 3 → Nat} (h : off = ![p.val, 0, 0])
    (inb : ∀ a, off a + S1x256x2048.size a ≤ S2x256x2048.size a) (X : Vec F S1x256x2048 .bf16)
    (hX : View.ld d (slotRect p) = X) : View.ld d (Rect.unit (s := S2x256x2048) off S1x256x2048.size inb) = X := by
  subst h; exact hX

/-- The parity of a point as a slot. -/
abbrev slotOf (n : ℕ) : Fin 2 := ⟨n % 2, Nat.mod_lt _ (by decide)⟩

/-! ## What the body computes, point by point -/

/-- The hidden tile the first layer computes at point `n`. -/
def hiddenAt (c : Dev nD) (n : ℕ) (hn : n < cfg0.N) : Vec F S1x256x2048 .bf16 :=
  k0_pay2 (iblk m c 0 ⟨n, hn⟩) (iblk m c 1 ⟨n, hn⟩) (iblk m c 2 ⟨n, hn⟩)

/-- What the second layer leaves in the output buffer at point `t` (consulted from point 1 on). -/
def outAt (c : Dev nD) (t : Fin cfg0.N) : Vec F S1x256x1024 .f32 :=
  k0_pay1 (hiddenAt m c (t.val - 1) (Nat.lt_of_le_of_lt (Nat.sub_le _ _) t.isLt)) (iblk m c 3 t) (iblk m c 4 t)

/-- The invariant before position `n`: at the start what the launch hands over (the scratch at anything); after
    point `n`, the scratch at contents whose slot `n % 2` is the hidden tile of point `n` when that point computed one. -/
def PhiS (c : Dev nD) : (n : ℕ) → n ≤ cfg0.N → sProp 𝕄
  | 0, _ => Pipeline.ΦA spec0 c
  | n + 1, hn => iprop(iprop(∃ d, ⌜n < 32 → View.ld d (slotRect (slotOf n)) = hiddenAt m c n hn⌝ ∗ owns (c : Thread nD τ) scM fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, ⌜n < 32 → View.ld d (slotRect (slotOf n)) = hiddenAt m c n hn⌝ ∗ owns (c : Thread nD τ) scM fullShare d) ∗ (∃ r, prngReg c r)) := rfl

theorem PhiS_pos (c : Dev nD) (n : ℕ) (h : n ≤ cfg0.N) (hz : n ≠ 0) :
    PhiS m c n h = iprop(iprop(∃ d, ⌜n - 1 < 32 → View.ld d (slotRect (slotOf (n - 1))) = hiddenAt m c (n - 1) (by omega)⌝ ∗ owns (c : Thread nD τ) scM fullShare d) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: by cases on the two conditions' closed forms, each leaf one of the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : 1 ≤ t.val
  · by_cases h1 : t.val < 32
    · -- both layers
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t h0], after_5]
      rw [PhiS_castSucc m c t, PhiS_pos m c _ _ (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
      have hc0 := (cond1_iff t).mpr h0
      have hc1 := (cond2_iff t).mpr h1
      have e1 : View.ld ds (Rect.unit (s := S2x256x2048) (k0_off1 (grid0.coords t)) S1x256x2048.size (k0_off1_inb (grid0.coords t) hc0))
          = hiddenAt m c (t.val - 1) (Nat.lt_of_le_of_lt (Nat.sub_le _ _) t.isLt) :=
        ld_unit_of_slot ds (slotOf (t.val - 1)) ((off1_eq t).trans (by rw [show (t.val + 1) % 2 = (t.val - 1) % 2 from by omega])) _ _ (hds (by omega))
      unfold outAt
      rw [← e1]
      iapply (runMid c (grid0.coords t) _ _ _ _ _ _ _ _ _ _ _ _ _ _ hc0 hc1 (iblk m c 0 t) (iblk m c 1 t) (iblk m c 2 t) (iblk m c 3 t) (iblk m c 4 t) ds Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%dS, %hdS, HS⟩⟩
      isplitl [HS Hg]
      · isplitl [HS]
        · iexists dS; isplitr; swap; · iexact HS
          ipureintro; intro _
          exact ld_slot_of_unit dS (slotOf t.val) (off2_eq t) _ _ hdS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- the last point: only the second layer
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t h0], after_5]
      rw [PhiS_castSucc m c t, PhiS_pos m c _ _ (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
      have hc0 := (cond1_iff t).mpr h0
      have hc1 : ¬k0_cond2 (grid0.coords t) = 1#1 := fun h => h1 ((cond2_iff t).mp h)
      have e1 : View.ld ds (Rect.unit (s := S2x256x2048) (k0_off1 (grid0.coords t)) S1x256x2048.size (k0_off1_inb (grid0.coords t) hc0))
          = hiddenAt m c (t.val - 1) (Nat.lt_of_le_of_lt (Nat.sub_le _ _) t.isLt) :=
        ld_unit_of_slot ds (slotOf (t.val - 1)) ((off1_eq t).trans (by rw [show (t.val + 1) % 2 = (t.val - 1) % 2 from by omega])) _ _ (hds (by omega))
      unfold outAt
      rw [← e1]
      iapply (runLast c (grid0.coords t) _ _ _ _ _ _ _ _ _ _ _ _ _ _ hc0 hc1 (iblk m c 0 t) (iblk m c 1 t) (iblk m c 2 t) (iblk m c 3 t) (iblk m c 4 t) ds Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexists ds; isplitr; swap; · iexact HS
          ipureintro; intro h; exact absurd h h1
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val < 32
    · -- the first point: only the first layer; the output buffer is handed back as found
      have hz : t.val = 0 := by omega
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [Dat.leavesExact_idle (dats m 0 c) 5 t (idle5 t hz) (noFlush5 t hz)]
      rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩, ⟨%d4, H4⟩, ⟨%d5, H5⟩⟩
      have hc0 : ¬k0_cond1 (grid0.coords t) = 1#1 := fun h => h0 ((cond1_iff t).mp h)
      have hc1 := (cond2_iff t).mpr h1
      iapply (runFirst c (grid0.coords t) _ _ _ _ _ _ _ _ _ _ _ _ _ _ hc0 hc1 (iblk m c 0 t) (iblk m c 1 t) (iblk m c 2 t) (iblk m c 3 t) (iblk m c 4 t) ds ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%dS, %hdS, HS⟩⟩
      isplitl [HS Hg]
      · isplitl [HS]
        · iexists dS; isplitr; swap; · iexact HS
          ipureintro; intro _
          exact ld_slot_of_unit dS (slotOf t.val) (off2_eq t) _ _ hdS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · exfalso; omega

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA_eq]
  iintro ⟨⟨%d, -, HS⟩, Hg⟩
  isplitl [HS]
  · iexists _; iexact HS
  iexact Hg

/-! ## The run and the frame -/

set_option backward.isDefEq.respectTransparency.types false in
/-- Every weakly fair execution of @main terminates, each array of the pipeline at what the write-backs leave of the
    proof data, the host line after the region applied to that, every other unscoped buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.IdealBody.Sched.lean ====
/-
  The schedule of the one pallas_call, decided once over its 33 grid points.

  Point `t` computes the hidden tile `t` (when `t < 32`) into slot `t % 2` of the two-slot scratch, and
  (when `1 ≤ t`) reads the hidden tile `t - 1` back from slot `(t + 1) % 2` to produce the output tile `t - 1`.
  Here: the two conditions in closed form, the two slot offsets in closed form, where the output window is idle,
  and the scratch slots as rectangles of the scratch buffer.
-/
import proofs.«150185_g12489764897382_cont_sun_c4_646_23_alg».proof.Proof.Gen.KernelIdeal.Frame
import proofs.«150185_g12489764897382_cont_sun_c4_646_23_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions and the two slot offsets, over the grid -/

/-- The second layer runs from point 1 on. -/
theorem cond1_iff : ∀ t : Fin cfg0.N, k0_cond1 (grid0.coords t) = 1#1 ↔ 1 ≤ t.val :=
  (by decide +kernel : ∀ t : Fin grid0.N, k0_cond1 (grid0.coords t) = 1#1 ↔ 1 ≤ t.val)

/-- The first layer runs before point 32. -/
theorem cond2_iff : ∀ t : Fin cfg0.N, k0_cond2 (grid0.coords t) = 1#1 ↔ t.val < 32 :=
  (by decide +kernel : ∀ t : Fin grid0.N, k0_cond2 (grid0.coords t) = 1#1 ↔ t.val < 32)

/-- The slot the second layer reads at point `t`: the other one than the first layer writes there. -/
theorem off1_eq : ∀ t : Fin cfg0.N, k0_off1 (grid0.coords t) = ![(t.val + 1) % 2, 0, 0] :=
  (by decide +kernel : ∀ t : Fin grid0.N, k0_off1 (grid0.coords t) = ![(t.val + 1) % 2, 0, 0])

/-- The slot the first layer writes at point `t`. -/
theorem off2_eq : ∀ t : Fin cfg0.N, k0_off2 (grid0.coords t) = ![t.val % 2, 0, 0] :=
  (by decide +kernel : ∀ t : Fin grid0.N, k0_off2 (grid0.coords t) = ![t.val % 2, 0, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is live from point 1 on, -/
theorem live5 : ∀ t : Fin cfg0.N, 1 ≤ t.val → cfg0.idle 5 (grid0.coords t) = false := by decide +kernel
/-- idle at point 0, -/
theorem idle5 : ∀ t : Fin cfg0.N, t.val = 0 → cfg0.idle 5 (grid0.coords t) = true := by decide +kernel
/-- and point 0 writes nothing back. -/
theorem noFlush5 : ∀ t : Fin cfg0.N, t.val = 0 → (cfg0.win 5).flush t = false := by decide +kernel

/-! ## The staging memrefs at a point, and the scratch -/

abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1024 .f32 := win0_5.stage (cfg0.slots t 5)
abbrev hs5 (t : Fin cfg0.N) : (ms5 t).IsWhole := hstage0_5 ((cfg0.slots t 5).cast nbuf0_5)
/-- The two-slot scratch, a whole buffer of the kernel's own. -/
abbrev scM : Memref sig .tc .vmem S2x256x2048 .bf16 := Memref.whole cc0_scratch0

/-- What the launch hands the body besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The scratch slots as rectangles -/

/-- Slot `p` of the scratch: the `[1,256,2048]` rectangle at offset `p` along the leading axis. -/
def slotRect (p : Fin 2) : Rect S2x256x2048 :=
  Rect.unit (s := S2x256x2048) ![p.val, 0, 0] S1x256x2048.size (by
    intro a; have := p.isLt
    match a with
    | ⟨0, _⟩ => show p.val + 1 ≤ 2; omega
    | ⟨1, _⟩ => show 0 + 256 ≤ 256; omega
    | ⟨2, _⟩ => show 0 + 2048 ≤ 2048; omega)

/-- A unit rectangle of a slot's size at the slot's offset is the slot, whatever its bounds proof. -/
theorem unit_eq_slot (p : Fin 2) {off : Fin 3 → Nat} (h : off = ![p.val, 0, 0])
    (inb : ∀ a, off a + S1x256x2048.size a ≤ S2x256x2048.size a) :
    Rect.unit (s := S2x256x2048) off S1x256x2048.size inb = slotRect p := by
  subst h; rfl

end Cert.KernelIdeal.Body

end
-- ==== Proof.IdealBody.Runs.lean ====
/-
  The kernel body at one grid point, in each of the three cases the two conditions leave, with what it
  stores stated through the payload functions.

  * first point (only the first layer runs): the scratch, at any contents, ends with the written slot
    holding the hidden tile computed from the three input blocks; the output buffer is handed back untouched;
  * middle points (both layers run): the output buffer ends holding the second layer's payload of the slot read
    and of the two weight blocks, and the scratch ends with the written slot holding the new hidden tile;
  * last point (only the second layer runs): the output buffer likewise, the scratch unchanged.
  In every case the five input buffers are handed back as found.  All three hold at any float instance.
-/
import proofs.«150185_g12489764897382_cont_sun_c4_646_23_alg».proof.Proof.IdealBody.Sched
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three zero offsets, as the constant function the whole-buffer lemmas ask for. -/
theorem zero3 : (![0, 0, 0] : Fin 3 → Nat) = fun _ => 0 := by
  funext a; match a with
  | ⟨0, _⟩ => rfl
  | ⟨1, _⟩ => rfl
  | ⟨2, _⟩ => rfl

set_option maxHeartbeats 1000000 in
/-- Both layers run. -/
theorem runMid (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : k0_cond1 i = 1#1) (hc1 : k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld xs (Rect.unit (s := S2x256x2048) (k0_off1 i) S1x256x2048.size (k0_off1_inb i hc0))) x3 x4)
                ∗ (∃ d, ⌜View.ld d (Rect.unit (s := S2x256x2048) (k0_off2 i) S1x256x2048.size (k0_off2_inb i hc1)) = k0_pay2 x0 x1 x2⌝ ∗ owns (c : Thread nD τ) arg7 fullShare d)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero zero3 inb_S1x256x1024_S1x256x1024_0_0_0 y⟩), View.canon_unit_zero zero3]
      simp only [View.readAt_eq_ld, harg7.read_unread, harg4.read_unread, harg5.read_unread,
        View.ld_unit_zero (S := S1x2048x1024) zero3, View.ld_unit_zero (S := S1x1x1024) zero3]
    iexists _; isplitr; swap
    · iexists _; isplitr; swap; · iexact HS
      ipureintro; rfl
    ipureintro
    funext y
    refine (View.read_writes_cons_emb _ _ _ _ _ y).trans ?_
    simp only [View.readAt_eq_ld, harg1.read_unread, harg2.read_unread, harg3.read_unread,
      View.ld_unit_zero (S := S1x256x1024) zero3, View.ld_unit_zero (S := S1x1024x2048) zero3, View.ld_unit_zero (S := S1x1x2048) zero3]

set_option maxHeartbeats 1000000 in
/-- Only the first layer runs: the output buffer is not touched. -/
theorem runFirst (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : ¬k0_cond1 i = 1#1) (hc1 : k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) (x5 : Vec F S1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare x5
                ∗ (∃ d, ⌜View.ld d (Rect.unit (s := S2x256x2048) (k0_off2 i) S1x256x2048.size (k0_off2_inb i hc1)) = k0_pay2 x0 x1 x2⌝ ∗ owns (c : Thread nD τ) arg7 fullShare d)) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact hf5
    iexists _; isplitr; swap
    · iexists _; isplitr; swap; · iexact HS
      ipureintro; rfl
    ipureintro
    funext y
    refine (View.read_writes_cons_emb _ _ _ _ _ y).trans ?_
    simp only [View.readAt_eq_ld, harg1.read_unread, harg2.read_unread, harg3.read_unread,
      View.ld_unit_zero (S := S1x256x1024) zero3, View.ld_unit_zero (S := S1x1024x2048) zero3, View.ld_unit_zero (S := S1x1x2048) zero3]

set_option maxHeartbeats 1000000 in
/-- Only the second layer runs: the scratch is not written. -/
theorem runLast (c : Dev nD) (i : grid0.Coords) (arg1 : Memref sig .tc .vmem S1x256x1024 .f32) (harg1 : arg1.IsWhole) (arg2 : Memref sig .tc .vmem S1x1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1x1x1024 .f32) (harg5 : arg5.IsWhole) (arg6 : Memref sig .tc .vmem S1x256x1024 .f32) (harg6 : arg6.IsWhole) (arg7 : Memref sig .tc .vmem S2x256x2048 .bf16) (harg7 : arg7.IsWhole) (hc0 : k0_cond1 i = 1#1) (hc1 : ¬k0_cond2 i = 1#1)
    (x0 : Vec F S1x256x1024 .f32) (x1 : Vec F S1x1024x2048 .f32) (x2 : Vec F S1x1x2048 .f32) (x3 : Vec F S1x2048x1024 .f32) (x4 : Vec F S1x1x1024 .f32) (xs : Vec F S2x256x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld xs (Rect.unit (s := S2x256x2048) (k0_off1 i) S1x256x2048.size (k0_off1_inb i hc0))) x3 x4)
                ∗ owns (c : Thread nD τ) arg7 fullShare xs) -∗ K ⟨⟩))
          ⊢ wp frame (wpE (defs₀ (F := F)) Variants.none c none) E (cc0__mlp_kernel i arg1 harg1 arg2 harg2 arg3 harg3 arg4 harg4 arg5 harg5 arg6 harg6 arg7 harg7) K := by
    intro E K
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [View.read_writes_eq_canon _ _ _ (fun y => ⟨_, List.mem_singleton_self _, View.mem_set_unit_zero zero3 inb_S1x256x1024_S1x256x1024_0_0_0 y⟩), View.canon_unit_zero zero3]
      simp only [View.readAt_eq_ld, harg7.read_unread, harg4.read_unread, harg5.read_unread,
        View.ld_unit_zero (S := S1x2048x1024) zero3, View.ld_unit_zero (S := S1x1x1024) zero3]
    iexists _; isplitr; swap; · iexact HS
    ipureintro; exact harg7.read_unread _

end Cert.KernelIdeal.Body

end
-- ==== Proof.IdealBody.Data.lean ====
/-
  The proof data of the pipeline and the body obligation at every grid point.

  The hidden tile of point `n` is the first layer's payload of the three input blocks at `n`; what point `t ≥ 1`
  leaves in the output buffer is the second layer's payload of the hidden tile of point `t - 1` and of the two
  weight blocks at `t`.  Between points the scratch is carried: after point `n < 32` its slot `n % 2` holds the
  hidden tile of point `n` (the other slot holds something the invariant does not name), which is exactly the
  slot point `n + 1` reads, because `(n + 2) % 2 = n % 2`.  Point 0 stores nothing into the output buffer and the
  pipeline does not write it back there; points 1 to 32 overwrite it wholly.
-/
import proofs.«150185_g12489764897382_cont_sun_c4_646_23_alg».proof.Proof.IdealBody.Runs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Slots read through either spelling of their rectangle -/

theorem ld_slot_of_unit (d : Vec F S2x256x2048 .bf16) (p : Fin 2) {off : Fin 3 → Nat} (h : off = ![p.val, 0, 0])
    (inb : ∀ a, off a + S1x256x2048.size a ≤ S2x256x2048.size a) (X : Vec F S1x256x2048 .bf16)
    (hX : View.ld d (Rect.unit (s := S2x256x2048) off S1x256x2048.size inb) = X) : View.ld d (slotRect p) = X := by
  subst h; exact hX

theorem ld_unit_of_slot (d : Vec F S2x256x2048 .bf16) (p : Fin 2) {off : Fin 3 → Nat} (h : off = ![p.val, 0, 0])
    (inb : ∀ a, off a + S1x256x2048.size a ≤ S2x256x2048.size a) (X : Vec F S1x256x2048 .bf16)
    (hX : View.ld d (slotRect p) = X) : View.ld d (Rect.unit (s := S2x256x2048) off S1x256x2048.size inb) = X := by
  subst h; exact hX

/-- The parity of a point as a slot. -/
abbrev slotOf (n : ℕ) : Fin 2 := ⟨n % 2, Nat.mod_lt _ (by decide)⟩

/-! ## What the body computes, point by point -/

/-- The hidden tile the first layer computes at point `n`. -/
def hiddenAt (c : Dev nD) (n : ℕ) (hn : n < cfg0.N) : Vec F S1x256x2048 .bf16 :=
  k0_pay2 (iblk m c 0 ⟨n, hn⟩) (iblk m c 1 ⟨n, hn⟩) (iblk m c 2 ⟨n, hn⟩)

/-- What the second layer leaves in the output buffer at point `t` (consulted from point 1 on). -/
def outAt (c : Dev nD) (t : Fin cfg0.N) : Vec F S1x256x1024 .f32 :=
  k0_pay1 (hiddenAt m c (t.val - 1) (Nat.lt_of_le_of_lt (Nat.sub_le _ _) t.isLt)) (iblk m c 3 t) (iblk m c 4 t)

/-- The invariant before position `n`: at the start what the launch hands over (the scratch at anything); after
    point `n`, the scratch at contents whose slot `n % 2` is the hidden tile of point `n` when that point computed one. -/
def PhiS (c : Dev nD) : (n : ℕ) → n ≤ cfg0.N → sProp 𝕄
  | 0, _ => Pipeline.ΦA spec0 c
  | n + 1, hn => iprop(iprop(∃ d, ⌜n < 32 → View.ld d (slotRect (slotOf n)) = hiddenAt m c n hn⌝ ∗ owns (c : Thread nD τ) scM fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, ⌜n < 32 → View.ld d (slotRect (slotOf n)) = hiddenAt m c n hn⌝ ∗ owns (c : Thread nD τ) scM fullShare d) ∗ (∃ r, prngReg c r)) := rfl

theorem PhiS_pos (c : Dev nD) (n : ℕ) (h : n ≤ cfg0.N) (hz : n ≠ 0) :
    PhiS m c n h = iprop(iprop(∃ d, ⌜n - 1 < 32 → View.ld d (slotRect (slotOf (n - 1))) = hiddenAt m c (n - 1) (by omega)⌝ ∗ owns (c : Thread nD τ) scM fullShare d) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: by cases on the two conditions' closed forms, each leaf one of the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : 1 ≤ t.val
  · by_cases h1 : t.val < 32
    · -- both layers
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t h0], after_5]
      rw [PhiS_castSucc m c t, PhiS_pos m c _ _ (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
      have hc0 := (cond1_iff t).mpr h0
      have hc1 := (cond2_iff t).mpr h1
      have e1 : View.ld ds (Rect.unit (s := S2x256x2048) (k0_off1 (grid0.coords t)) S1x256x2048.size (k0_off1_inb (grid0.coords t) hc0))
          = hiddenAt m c (t.val - 1) (Nat.lt_of_le_of_lt (Nat.sub_le _ _) t.isLt) :=
        ld_unit_of_slot ds (slotOf (t.val - 1)) ((off1_eq t).trans (by rw [show (t.val + 1) % 2 = (t.val - 1) % 2 from by omega])) _ _ (hds (by omega))
      unfold outAt
      rw [← e1]
      iapply (runMid c (grid0.coords t) _ _ _ _ _ _ _ _ _ _ _ _ _ _ hc0 hc1 (iblk m c 0 t) (iblk m c 1 t) (iblk m c 2 t) (iblk m c 3 t) (iblk m c 4 t) ds Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%dS, %hdS, HS⟩⟩
      isplitl [HS Hg]
      · isplitl [HS]
        · iexists dS; isplitr; swap; · iexact HS
          ipureintro; intro _
          exact ld_slot_of_unit dS (slotOf t.val) (off2_eq t) _ _ hdS
        iexact Hg
      isplitl [Ho]; · iexact Ho
      isplitl [H0]; · iexact H0
      isplitl [H1]; · iexact H1
      isplitl [H2]; · iexact H2
      isplitl [H3]; · iexact H3
      isplitl [H4]; · iexact H4
      iexact H5
    · -- the last point: only the second layer
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t h0], after_5]
      rw [PhiS_castSucc m c t, PhiS_pos m c _ _ (by omega)]
      iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
      have hc0 := (cond1_iff t).mpr h0
      have hc1 : ¬k0_cond2 (grid0.coords t) = 1#1 := fun h => h1 ((cond2_iff t).mp h)
      have e1 : View.ld ds (Rect.unit (s := S2x256x2048) (k0_off1 (grid0.coords t)) S1x256x2048.size (k0_off1_inb (grid0.coords t) hc0))
          = hiddenAt m c (t.val - 1) (Nat.lt_of_le_of_lt (Nat.sub_le _ _) t.isLt) :=
        ld_unit_of_slot ds (slotOf (t.val - 1)) ((off1_eq t).trans (by rw [show (t.val + 1) % 2 = (t.val - 1) % 2 from by omega])) _ _ (hds (by omega))
      unfold outAt
      rw [← e1]
      iapply (runLast c (grid0.coords t) _ _ _ _ _ _ _ _ _ _ _ _ _ _ hc0 hc1 (iblk m c 0 t) (iblk m c 1 t) (iblk m c 2 t) (iblk m c 3 t) (iblk m c 4 t) ds Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexists ds; isplitr; swap; · iexact HS
          ipureintro; intro h; exact absurd h h1
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val < 32
    · -- the first point: only the first layer; the output buffer is handed back as found
      have hz : t.val = 0 := by omega
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [Dat.leavesExact_idle (dats m 0 c) 5 t (idle5 t hz) (noFlush5 t hz)]
      rw [PhiS_castSucc m c t, PhiS_zero m c _ _ hz, PhiA_eq]
      iintro ⟨⟨⟨%ds, HS⟩, Hg⟩, Ho, ⟨%d0, H0⟩, ⟨%d1, H1⟩, ⟨%d2, H2⟩, ⟨%d3, H3⟩, ⟨%d4, H4⟩, ⟨%d5, H5⟩⟩
      have hc0 : ¬k0_cond1 (grid0.coords t) = 1#1 := fun h => h0 ((cond1_iff t).mp h)
      have hc1 := (cond2_iff t).mpr h1
      iapply (runFirst c (grid0.coords t) _ _ _ _ _ _ _ _ _ _ _ _ _ _ hc0 hc1 (iblk m c 0 t) (iblk m c 1 t) (iblk m c 2 t) (iblk m c 3 t) (iblk m c 4 t) ds ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%dS, %hdS, HS⟩⟩
      isplitl [HS Hg]
      · isplitl [HS]
        · iexists dS; isplitr; swap; · iexact HS
          ipureintro; intro _
          exact ld_slot_of_unit dS (slotOf t.val) (off2_eq t) _ _ hdS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · exfalso; omega

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA_eq]
  iintro ⟨⟨%d, -, HS⟩, Hg⟩
  isplitl [HS]
  · iexists _; iexact HS
  iexact Hg

/-! ## The run and the frame -/

set_option backward.isDefEq.respectTransparency.types false in
/-- Every weakly fair execution of @main terminates, each array of the pipeline at what the write-backs leave of the
    proof data, the host line after the region applied to that, every other unscoped buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the five argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The mathematics both programs compute, stated once over the extended reals.

  The tokens are cut into 32 tiles of 256 rows; tile `s` belongs to expert `s / 4`.  For a row `r` of tile `s`
  the hidden activation at feature `f` is `max (∑ d, x[s,r,d] · W1[s/4,d,f] + b1[s/4,f]) 0`, and the output at
  column `d'` is `∑ f, hidden[s,r,f] · W2[s/4,f,d'] + b2[s/4,d']`.  Both sums run over the whole contracted axis
  in one piece, so no rearrangement of a sum is needed anywhere.  The biases enter through their
  reshaped forms `[8,1,2048]` and `[8,1,1024]`, and `x` through its tiled form `[32,256,1024]`.
-/
import Idealize.ShloMosaic.PureOps.Ideal
import Idealize.ShloMosaic.Lib.ValueIdx

noncomputable section

namespace Cert.MlpSpec

open Idealize.ShloMosaic Idealize.ShloMosaic.ValueIdx

/-- The tiled tokens and the tiled result. -/
abbrev STile : Shape := ⟨3, ![32, 256, 1024]⟩
abbrev SW1 : Shape := ⟨3, ![8, 1024, 2048]⟩
abbrev SB1 : Shape := ⟨3, ![8, 1, 2048]⟩
abbrev SW2 : Shape := ⟨3, ![8, 2048, 1024]⟩
abbrev SB2 : Shape := ⟨3, ![8, 1, 1024]⟩

/-- The expert a tile belongs to: four consecutive tiles share one. -/
def expertOf (s : Fin 32) : Fin 8 := ⟨s.val / 4, by have := s.isLt; omega⟩

theorem expertOf_val (s : Fin 32) : (expertOf s).val = s.val / 4 := rfl

/-- The float zero the activation is clamped at: the same word in both programs, never evaluated. -/
abbrev zeroF : Ideal .f32 := FloatOps.ofBits (F := Ideal) .f32 0x00000000#32

/-- The hidden activation of row `r` of tile `s` at feature `f`. -/
def hidden (xr : FVec Ideal STile .f32) (W1 : FVec Ideal SW1 .f32) (b1r : FVec Ideal SB1 .f32)
    (s : Fin 32) (r : Fin 256) (f : Fin 2048) : Ideal .f32 :=
  max ((∑ d : Fin 1024, xr (ix3 s r d) * W1 (ix3 (expertOf s) d f)) + b1r (ix3 (expertOf s) 0 f)) zeroF

/-- The result at row `r` of tile `s`, column `d'`. -/
def tileOutAt (xr : FVec Ideal STile .f32) (W1 : FVec Ideal SW1 .f32) (b1r : FVec Ideal SB1 .f32)
    (W2 : FVec Ideal SW2 .f32) (b2r : FVec Ideal SB2 .f32) (s : Fin 32) (r : Fin 256) (d' : Fin 1024) : Ideal .f32 :=
  (∑ f : Fin 2048, hidden xr W1 b1r s r f * W2 (ix3 (expertOf s) f d')) + b2r (ix3 (expertOf s) 0 d')

/-- The whole tiled result, index by index. -/
def tileOut (xr : FVec Ideal STile .f32) (W1 : FVec Ideal SW1 .f32) (b1r : FVec Ideal SB1 .f32)
    (W2 : FVec Ideal SW2 .f32) (b2r : FVec Ideal SB2 .f32) : FVec Ideal STile .f32 :=
  fun j => tileOutAt xr W1 b1r W2 b2r (j 0) (j 1) (j 2)

theorem tileOut_apply (xr : FVec Ideal STile .f32) (W1 : FVec Ideal SW1 .f32) (b1r : FVec Ideal SB1 .f32)
    (W2 : FVec Ideal SW2 .f32) (b2r : FVec Ideal SB2 .f32) (s : Fin 32) (r : Fin 256) (d' : Fin 1024) :
    tileOut xr W1 b1r W2 b2r (ix3 s r d') = tileOutAt xr W1 b1r W2 b2r s r d' := rfl

end Cert.MlpSpec

end
-- ==== Proof.PayloadAt.lean ====
/-
  The two values the kernel stores at a grid point, read entry by entry over the extended reals.

  At a grid point the kernel stores, for the current tile, the hidden activation
  `max (x · W1 + b1) 0` (rounded to bf16, which changes nothing at the extended reals) and, for the
  previous tile, the output `hidden · W2 + b2`.  Both are written over `[1, rows, cols]` blocks: the
  leading unit axis is dropped before the product and put back after it, the product accumulates into
  a zero matrix, and the bias is one row repeated over the 256 rows of the tile.  The two theorems at
  the end state each stored value at `(0, r, c)` as the sum over the whole contracted axis plus the bias
  entry, with the factors read from the loaded blocks at `(0, r, k)` and `(0, k, c)`.
-/
import proofs.«150185_g12489764897382_cont_sun_c4_646_23_alg».proof.Proof.Gen.KernelIdeal.Skeleton
import proofs.«150185_g12489764897382_cont_sun_c4_646_23_alg».proof.Proof.Spec
import Idealize.ShloMosaic.Lib.ValueLayout
import Idealize.ShloMosaic.Lib.ValueIdx
import Idealize.ShloMosaic.PureOps.Ideal.Laws

noncomputable section

namespace Cert.KernelIdeal.PayloadAt

open Idealize.ShloMosaic Idealize.ShloMosaic.ValueIdx Cert.KernelIdeal

/-! ## The two matrix products, read at an index

  Each product contracts one axis into a zero accumulator, so at the extended reals its entry at
  `(r, c)` is the plain sum over the contracted coordinate `k` of the left factor at `(r, k)` times the right
  factor at `(k, c)`.  The contraction index of the dimension record is a one-axis index; the sum is
  re-indexed through the bijection of that index with its one coordinate. -/

/-- The dimension numbers of the first product, `[256,1024] × [1024,2048]`. -/
abbrev dotUp : DotDims S256x1024 S1024x2048 S256x2048 := dot_S256x1024_S1024x2048_S256x2048_1_0_0_1_n_n
/-- The dimension numbers of the second product, `[256,2048] × [2048,1024]`. -/
abbrev dotDown : DotDims S256x2048 S2048x1024 S256x1024 := dot_S256x2048_S2048x1024_S256x1024_1_0_0_1_n_n

/-- The first product at `(r, f)`: `∑ d, x[r,d] · w[d,f]`. -/
theorem matmul_up_at (x : FVec Ideal S256x1024 .f32) (w : FVec Ideal S1024x2048 .f32) (r : Fin 256) (f : Fin 2048) :
    FloatOps.matmul (F := Ideal) dotUp none x w (constant (F := Ideal) S256x2048 .f32 0x00000000#32) (ix2 r f)
      = ∑ d : Fin 1024, x (ix2 r d) * w (ix2 d f) := by
  rw [Ideal.matmul_constant_zero_apply, ← Equiv.sum_comp (contrEquiv1 dotUp 1024 rfl rfl).symm]
  refine Finset.sum_congr rfl fun k _ => ?_
  have hk := contrEquiv1_symm_val dotUp 1024 rfl rfl k
  have el : dotUp.lhsIdx (ix2 r f) ((contrEquiv1 dotUp 1024 rfl rfl).symm k) = ix2 r k := funext fun a => Fin.ext (by
    match a with
    | ⟨0, _⟩ => rfl
    | ⟨1, _⟩ => exact (dotUp.lhsIdx_val_of_single rfl _ _).trans hk)
  have er : dotUp.rhsIdx (ix2 r f) ((contrEquiv1 dotUp 1024 rfl rfl).symm k) = ix2 k f := funext fun a => Fin.ext (by
    match a with
    | ⟨0, _⟩ => exact (dotUp.rhsIdx_val_of_single rfl _ _).trans hk
    | ⟨1, _⟩ => rfl)
  rw [el, er]

/-- The second product at `(r, c)`: `∑ f, h[r,f] · w[f,c]`.  The left factor is a bf16 vector and the right one an f32
    vector rounded to bf16; at the extended reals both are extended reals and the rounding is the identity. -/
theorem matmul_down_at (h : FVec Ideal S256x2048 .bf16) (w : FVec Ideal S2048x1024 .bf16) (r : Fin 256) (c : Fin 1024) :
    FloatOps.matmul (F := Ideal) dotDown none h w (constant (F := Ideal) S256x1024 .f32 0x00000000#32) (ix2 r c)
      = ∑ f : Fin 2048, h (ix2 r f) * w (ix2 f c) := by
  rw [Ideal.matmul_constant_zero_apply, ← Equiv.sum_comp (contrEquiv1 dotDown 2048 rfl rfl).symm]
  refine Finset.sum_congr rfl fun k _ => ?_
  have hk := contrEquiv1_symm_val dotDown 2048 rfl rfl k
  have el : dotDown.lhsIdx (ix2 r c) ((contrEquiv1 dotDown 2048 rfl rfl).symm k) = ix2 r k := funext fun a => Fin.ext (by
    match a with
    | ⟨0, _⟩ => rfl
    | ⟨1, _⟩ => exact (dotDown.lhsIdx_val_of_single rfl _ _).trans hk)
  have er : dotDown.rhsIdx (ix2 r c) ((contrEquiv1 dotDown 2048 rfl rfl).symm k) = ix2 k c := funext fun a => Fin.ext (by
    match a with
    | ⟨0, _⟩ => exact (dotDown.rhsIdx_val_of_single rfl _ _).trans hk
    | ⟨1, _⟩ => rfl)
  rw [el, er]

/-! ## The two stored values, read at an index -/

/-- The hidden activation the kernel stores for a tile, at row `r` and feature `f`: the blocks lose their leading unit
    axis, the product is the sum over the model axis, the bias row is repeated over the 256 rows and added, the
    result is clamped below at the float zero, and the final rounding to bf16 is the identity at the extended reals. -/
theorem pay2_at (v6 : Vec Ideal S1x256x1024 .f32) (v8 : Vec Ideal S1x1024x2048 .f32) (v11 : Vec Ideal S1x1x2048 .f32)
    (r : Fin 256) (f : Fin 2048) :
    Gen.k0_pay2 (F := Ideal) v6 v8 v11 (ix3 0 r f)
      = max ((∑ d : Fin 1024, v6 (ix3 0 r d) * v8 (ix3 0 d f)) + v11 (ix3 0 0 f)) Cert.MlpSpec.zeroF := by
  unfold Gen.k0_pay2
  refine (shapeCast_ab_1ab_apply _ _ 0 r f).trans ?_
  refine congrArg₂ max (congrArg₂ (· + ·) ?_ ?_) rfl
  · refine (matmul_up_at _ _ r f).trans ?_
    exact Finset.sum_congr rfl fun d _ =>
      congrArg₂ (· * ·) (shapeCast_1ab_ab_apply v6 _ r d) (shapeCast_1ab_ab_apply v8 _ d f)
  · exact (broadcastTo_1b_ab_apply _ _ r f).trans (shapeCast_1ab_ab_apply v11 _ 0 f)

/-- The output block the kernel stores for a tile, at row `r` and column `c`: the stored hidden block and the second
    weight block lose their leading unit axis, the product is the sum over the feature axis, the bias row is repeated
    over the 256 rows and added, and the leading unit axis is put back. -/
theorem pay1_at (v9 : Vec Ideal S1x256x2048 .bf16) (v11 : Vec Ideal S1x2048x1024 .f32) (v15 : Vec Ideal S1x1x1024 .f32)
    (r : Fin 256) (c : Fin 1024) :
    Gen.k0_pay1 (F := Ideal) v9 v11 v15 (ix3 0 r c)
      = (∑ f : Fin 2048, v9 (ix3 0 r f) * v11 (ix3 0 f c)) + v15 (ix3 0 0 c) := by
  unfold Gen.k0_pay1
  refine (shapeCast_ab_1ab_apply _ _ 0 r c).trans ?_
  refine congrArg₂ (· + ·) ?_ ?_
  · refine (matmul_down_at _ _ r c).trans ?_
    exact Finset.sum_congr rfl fun f _ =>
      congrArg₂ (· * ·) (shapeCast_1ab_ab_apply v9 _ r f) (shapeCast_1ab_ab_apply v11 _ f c)
  · exact (broadcastTo_1b_ab_apply _ _ r c).trans (shapeCast_1ab_ab_apply v15 _ 0 c)

end Cert.KernelIdeal.PayloadAt

end
-- ==== Proof.IdealBody.TileValue.lean ====
/-
  What the tiled result array holds after the run, at the extended reals.

  Point `t ≥ 1` writes back output tile `t - 1`: the second layer's payload of the hidden tile of point `t - 1`
  (computed from token tile `t - 1` and the first-layer weights of expert `(t - 1) / 4`) and of the second-layer
  weights of the same expert, whose block is the one staged at point `t`.  Read entry by entry this is the
  specification's `tileOutAt` at tile `t - 1`.  The 32 tiles written back at points 1 to 32 cover the array.
-/
import proofs.«150185_g12489764897382_cont_sun_c4_646_23_alg».proof.Proof.IdealBody.Data
import proofs.«150185_g12489764897382_cont_sun_c4_646_23_alg».proof.Proof.PayloadAt
import proofs.«150185_g12489764897382_cont_sun_c4_646_23_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.TileValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The block indices, decided over the grid -/

theorem index_facts : ∀ t : Fin cfg0.N,
      win0_0.index t (0 : Fin 3) = min t.val 31 ∧ win0_0.index t (1 : Fin 3) = 0 ∧ win0_0.index t (2 : Fin 3) = 0
    ∧ win0_1.index t (0 : Fin 3) = min t.val 31 / 4 ∧ win0_1.index t (1 : Fin 3) = 0 ∧ win0_1.index t (2 : Fin 3) = 0
    ∧ win0_2.index t (0 : Fin 3) = min t.val 31 / 4 ∧ win0_2.index t (1 : Fin 3) = 0 ∧ win0_2.index t (2 : Fin 3) = 0
    ∧ win0_3.index t (0 : Fin 3) = (t.val - 1) / 4 ∧ win0_3.index t (1 : Fin 3) = 0 ∧ win0_3.index t (2 : Fin 3) = 0
    ∧ win0_4.index t (0 : Fin 3) = (t.val - 1) / 4 ∧ win0_4.index t (1 : Fin 3) = 0 ∧ win0_4.index t (2 : Fin 3) = 0
    ∧ win0_5.index t (0 : Fin 3) = t.val - 1 ∧ win0_5.index t (1 : Fin 3) = 0 ∧ win0_5.index t (2 : Fin 3) = 0 :=
  (by decide +kernel : ∀ t : Fin grid0.N, _)

/-- The output tile is written back at every point but the first. -/
theorem flush_iff : ∀ t : Fin cfg0.N, (cfg0.win 5).flush t = true ↔ 1 ≤ t.val :=
  (by decide +kernel : ∀ t : Fin grid0.N, (cfg0.win 5).flush t = true ↔ 1 ≤ t.val)

/-! ## Each window's block read where the arrays hold it -/

theorem blk0 (c : Dev nD) (t : Fin cfg0.N) (s : Fin 32) (hs : s.val = min t.val 31) (r : Fin 256) (d : Fin 1024) :
    iblk m c 0 t (ix3 0 r d) = V m c main_v0 (ix3 s r d) := by
  show V m c main_v0 (((cfg0.win 0).blk t).view.emb (ix3 0 r d)) = V m c main_v0 (ix3 s r d)
  obtain ⟨e0, e1, e2, -⟩ := index_facts t
  refine congrArg _ (funext fun a => Fin.ext ?_)
  match a with
  | ⟨0, _⟩ => show win0_0.index t (0 : Fin 3) * 1 + 1 * 0 = s.val; omega
  | ⟨1, _⟩ => show win0_0.index t (1 : Fin 3) * 256 + 1 * r.val = r.val; omega
  | ⟨2, _⟩ => show win0_0.index t (2 : Fin 3) * 1024 + 1 * d.val = d.val; omega

theorem blk1 (c : Dev nD) (t : Fin cfg0.N) (e : Fin 8) (he : e.val = min t.val 31 / 4) (d : Fin 1024) (f : Fin 2048) :
    iblk m c 1 t (ix3 0 d f) = V m c main_arg1 (ix3 e d f) := by
  show V m c main_arg1 (((cfg0.win 1).blk t).view.emb (ix3 0 d f)) = V m c main_arg1 (ix3 e d f)
  obtain ⟨-, -, -, e0, e1, e2, -⟩ := index_facts t
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * d.val = d.val; omega
  | ⟨2, _⟩ => show win0_1.index t (2 : Fin 3) * 2048 + 1 * f.val = f.val; omega

theorem blk2 (c : Dev nD) (t : Fin cfg0.N) (e : Fin 8) (he : e.val = min t.val 31 / 4) (f : Fin 2048) :
    iblk m c 2 t (ix3 0 0 f) = V m c main_v1 (ix3 e 0 f) := by
  show V m c main_v1 (((cfg0.win 2).blk t).view.emb (ix3 0 0 f)) = V m c main_v1 (ix3 e 0 f)
  obtain ⟨-, -, -, -, -, -, e0, e1, e2, -⟩ := index_facts t
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 2048 + 1 * f.val = f.val; omega

theorem blk3 (c : Dev nD) (t : Fin cfg0.N) (e : Fin 8) (he : e.val = (t.val - 1) / 4) (f : Fin 2048) (d' : Fin 1024) :
    iblk m c 3 t (ix3 0 f d') = V m c main_arg3 (ix3 e f d') := by
  show V m c main_arg3 (((cfg0.win 3).blk t).view.emb (ix3 0 f d')) = V m c main_arg3 (ix3 e f d')
  obtain ⟨-, -, -, -, -, -, -, -, -, e0, e1, e2, -⟩ := index_facts t
  refine congrArg _ (funext fun a => Fin.ext ?_)
  match a with
  | ⟨0, _⟩ => show win0_3.index t (0 : Fin 3) * 1 + 1 * 0 = e.val; omega
  | ⟨1, _⟩ => show win0_3.index t (1 : Fin 3) * 2048 + 1 * f.val = f.val; omega
  | ⟨2, _⟩ => show win0_3.index t (2 : Fin 3) * 1024 + 1 * d'.val = d'.val; omega

theorem blk4 (c : Dev nD) (t : Fin cfg0.N) (e : Fin 8) (he : e.val = (t.val - 1) / 4) (d' : Fin 1024) :
    iblk m c 4 t (ix3 0 0 d') = V m c main_v2 (ix3 e 0 d') := by
  show V m c main_v2 (((cfg0.win 4).blk t).view.emb (ix3 0 0 d')) = V m c main_v2 (ix3 e 0 d')
  obtain ⟨-, -, -, -, -, -, -, -, -, -, -, -, e0, e1, e2, -⟩ := index_facts t
  refine congrArg _ (funext fun a => Fin.ext ?_)
  match a with
  | ⟨0, _⟩ => show win0_4.index t (0 : Fin 3) * 1 + 1 * 0 = e.val; omega
  | ⟨1, _⟩ => show win0_4.index t (1 : Fin 3) * 1 + 1 * 0 = 0; omega
  | ⟨2, _⟩ => show win0_4.index t (2 : Fin 3) * 1024 + 1 * d'.val = d'.val; omega

/-- Where the output block's entry `(0, r, d')` sits in the tiled result at point `t`. -/
theorem emb5 (t : Fin cfg0.N) (s : Fin 32) (hs : s.val = t.val - 1) (r : Fin 256) (d' : Fin 1024) :
    ((cfg0.win 5).blk t).view.emb (ix3 0 r d') = (ix3 s r d' : S32x256x1024.Idx) := by
  obtain ⟨-, -, -, -, -, -, -, -, -, -, -, -, -, -, -, e0, e1, e2⟩ := index_facts t
  refine funext fun a => Fin.ext ?_
  match a with
  | ⟨0, _⟩ => show win0_5.index t (0 : Fin 3) * 1 + 1 * 0 = s.val; omega
  | ⟨1, _⟩ => show win0_5.index t (1 : Fin 3) * 256 + 1 * r.val = r.val; omega
  | ⟨2, _⟩ => show win0_5.index t (2 : Fin 3) * 1024 + 1 * d'.val = d'.val; omega

/-! ## The tiled result -/

/-- The specification's tiled result of the arrays as the region finds them. -/
def tiled (c : Dev nD) : S32x256x1024.Idx → Elt Ideal .f32 :=
  Cert.MlpSpec.tileOut (V m c main_v0) (V m c main_arg1) (V m c main_v1) (V m c main_arg3) (V m c main_v2)

/-- What point `t ≥ 1` leaves in the output buffer, entry by entry: the specification at tile `t - 1`. -/
theorem outAt_apply (c : Dev nD) (t : Fin cfg0.N) (ht : 1 ≤ t.val) (s : Fin 32) (hs : s.val = t.val - 1) (r : Fin 256) (d' : Fin 1024) :
    outAt m c t (ix3 0 r d') = Cert.MlpSpec.tileOutAt (V m c main_v0) (V m c main_arg1) (V m c main_v1) (V m c main_arg3) (V m c main_v2) s r d' := by
  have hN : t.val < 33 := lt_of_lt_of_eq t.isLt (show cfg0.N = 33 from N_0)
  have he : (Cert.MlpSpec.expertOf s).val = (t.val - 1) / 4 := by rw [Cert.MlpSpec.expertOf_val, hs]
  unfold outAt
  rw [PayloadAt.pay1_at]
  unfold Cert.MlpSpec.tileOutAt
  rw [blk4 m c t (Cert.MlpSpec.expertOf s) he d']
  refine congrArg (· + _) (Finset.sum_congr rfl fun f _ => ?_)
  rw [blk3 m c t (Cert.MlpSpec.expertOf s) he f d']
  refine congrArg (· * _) ?_
  unfold hiddenAt Cert.MlpSpec.hidden
  rw [PayloadAt.pay2_at]
  have hs' : s.val = min (t.val - 1) 31 := by omega
  have he' : (Cert.MlpSpec.expertOf s).val = min (t.val - 1) 31 / 4 := by rw [Cert.MlpSpec.expertOf_val, hs']
  rw [blk2 m c ⟨t.val - 1, _⟩ (Cert.MlpSpec.expertOf s) he' f]
  refine congrArg (max · _) (congrArg (· + _) (Finset.sum_congr rfl fun d _ => ?_))
  rw [blk0 m c ⟨t.val - 1, _⟩ s hs' r d, blk1 m c ⟨t.val - 1, _⟩ (Cert.MlpSpec.expertOf s) he' d f]

/-- WHAT POINT `t` WRITES BACK is block `t` of the tiled result. -/
theorem flushed_eq (c : Dev nD) (t : Fin cfg0.N) (ht : 1 ≤ t.val) :
    (dats m 0 c).flushed 5 t = ((cfg0.win 5).blk t).view.read (Elt Ideal) (tiled m c) := by
  have hN : t.val < 33 := lt_of_lt_of_eq t.isLt (show cfg0.N = 33 from N_0)
  show (cfg0.win 5).cut (grid0.coords t) ((dats m 0 c).after 5 t) = _
  rw [after_5]
  funext y
  obtain ⟨a, r, d', rfl⟩ : ∃ (a : Fin 1) (r : Fin 256) (d' : Fin 1024), y = ix3 a r d' := ⟨y 0, y 1, y 2, eq_ix3 y⟩
  obtain rfl : a = 0 := Subsingleton.elim _ _
  show outAt m c t (ix3 0 r d') = tiled m c (((cfg0.win 5).blk t).view.emb (ix3 0 r d'))
  rw [emb5 t ⟨t.val - 1, by omega⟩ rfl r d', outAt_apply m c t ht ⟨t.val - 1, by omega⟩ rfl r d']
  rfl

/-! ## The cover -/

theorem mem_blk5 (t : Fin cfg0.N) (i : S32x256x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v3).slice (win0_5.rect t)).set ↔ _
  rw [View.set_slice_whole, Rect.mem_set_unit]
  exact Iff.rfl

/-- Every entry of the tiled result is in the block of the point after its tile. -/
theorem cover (i : S32x256x1024.Idx) :
    ∃ t : Fin cfg0.N, (cfg0.win 5).flush t = true ∧ i ∈ ((cfg0.win 5).blk t).view.set := by
  have h0 : (i 0).val < 32 := (i 0).isLt
  have h1 : (i 1).val < 256 := (i 1).isLt
  have h2 : (i 2).val < 1024 := (i 2).isLt
  have hN : cfg0.N = 33 := N_0
  refine ⟨⟨(i 0).val + 1, by omega⟩, (flush_iff _).mpr (by show 1 ≤ (i 0).val + 1; omega), ?_⟩
  rw [mem_blk5]
  obtain ⟨-, -, -, -, -, -, -, -, -, -, -, -, -, -, -, e0, e1, e2⟩ := index_facts ⟨(i 0).val + 1, by omega⟩
  intro a
  match a with
  | ⟨0, _⟩ => show win0_5.index _ (0 : Fin 3) * 1 ≤ (i 0).val ∧ (i 0).val < win0_5.index _ (0 : Fin 3) * 1 + 1; rw [e0]; show ((i 0).val + 1 - 1) * 1 ≤ (i 0).val ∧ (i 0).val < ((i 0).val + 1 - 1) * 1 + 1; omega
  | ⟨1, _⟩ => show win0_5.index _ (1 : Fin 3) * 256 ≤ (i 1).val ∧ (i 1).val < win0_5.index _ (1 : Fin 3) * 256 + 256; rw [e1]; omega
  | ⟨2, _⟩ => show win0_5.index _ (2 : Fin 3) * 1024 ≤ (i 2).val ∧ (i 2).val < win0_5.index _ (2 : Fin 3) * 1024 + 1024; rw [e2]; omega

/-- THE ARRAY after the run: the specification's tiled result. -/
theorem final5 (c : Dev nD) : (dats m 0 c).arrAt 5 cfg0.N = tiled m c :=
  (dats m 0 c).arrAt_eq_of_cover 5 (tiled m c) (fun t ht => flushed_eq m c t ((flush_iff t).mp ht)) cover

end Cert.KernelIdeal.TileValue

end
-- ==== Proof.IdealBody.Result.lean ====
/-
  The kernel's run read back: its result array is the specification's tiled result of the re-laid arguments,
  re-laid row-major into the result's shape.

  Before the region the host re-lays the tokens into 32 tiles and the two biases into `[8,1,n]` form; the two
  weight arrays reach the region as launched.  After the region the host re-lays the tiled result into `[4,2048,1024]`.
-/
import proofs.«150185_g12489764897382_cont_sun_c4_646_23_alg».proof.Proof.IdealBody.TileValue
import proofs.«150185_g12489764897382_cont_sun_c4_646_23_alg».proof.Proof.PayloadAt
import proofs.«150185_g12489764897382_cont_sun_c4_646_23_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.TileValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays as the region finds them -/

theorem V_v0 (c : Dev nD) : V m c main_v0 = shapeCast _ (m ((c : Thread nD τ).loc main_arg0)) shapeCasts_S4x2048x1024_S32x256x1024 := by
  show StableHlo.after hostOps0 (fun b => m (c, b)) (Proc.devRef .tc main_v0) = _
  after_results; rfl

theorem V_v1 (c : Dev nD) : V m c main_v1 = shapeCast _ (m ((c : Thread nD τ).loc main_arg2)) shapeCasts_S8x2048_S8x1x2048 := by
  show StableHlo.after hostOps0 (fun b => m (c, b)) (Proc.devRef .tc main_v1) = _
  after_results; rfl

theorem V_v2 (c : Dev nD) : V m c main_v2 = shapeCast _ (m ((c : Thread nD τ).loc main_arg4)) shapeCasts_S8x1024_S8x1x1024 := by
  show StableHlo.after hostOps0 (fun b => m (c, b)) (Proc.devRef .tc main_v2) = _
  after_results; rfl

/-- The tiled result in terms of the launch contents of the five arguments. -/
theorem tiled_eq (c : Dev nD) : tiled m c = Cert.MlpSpec.tileOut
    (shapeCast _ (m ((c : Thread nD τ).loc main_arg0)) shapeCasts_S4x2048x1024_S32x256x1024)
    (m ((c : Thread nD τ).loc main_arg1))
    (shapeCast _ (m ((c : Thread nD τ).loc main_arg2)) shapeCasts_S8x2048_S8x1x2048)
    (m ((c : Thread nD τ).loc main_arg3))
    (shapeCast _ (m ((c : Thread nD τ).loc main_arg4)) shapeCasts_S8x1024_S8x1x1024) := by
  unfold tiled
  rw [V_v0, V_v1, V_v2, V_main_arg1, V_main_arg3]

/-! ## The host line after the region -/

theorem tail_v4 (c : Dev nD) :
    Pipeline.afterTail₀ cfgs (dats m) 0 (V0 m) [hostOps1] c main_v4
      = shapeCast _ (tiled m c) shapeCasts_S32x256x1024_S4x2048x1024 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.tc.devRef main_v3) = tiled m c :=
    (Pipeline.withArrays_arr spec0 launch0.win.arr_inj c _ _ 5).trans (final5 m c)
  rw [h]; rfl

/-! ## The run, read -/

/-- Every weakly fair execution of the kernel's @main terminates with the result array at the specification's tiled
    result of the re-laid arguments, re-laid into the result's shape, and the five arguments as launched. -/
theorem run : θ_run defs (onTc (τ := τ) (main (F := Ideal))) ⟨m, fun _ => 0, ρ⟩ fun r => ∀ c : Dev nD,
      r.2.mem ((c.tc : Thread nD τ).loc main_v4) = shapeCast _ (Cert.MlpSpec.tileOut
          (shapeCast _ (m ((c : Thread nD τ).loc main_arg0)) shapeCasts_S4x2048x1024_S32x256x1024)
          (m ((c : Thread nD τ).loc main_arg1))
          (shapeCast _ (m ((c : Thread nD τ).loc main_arg2)) shapeCasts_S8x2048_S8x1x2048)
          (m ((c : Thread nD τ).loc main_arg3))
          (shapeCast _ (m ((c : Thread nD τ).loc main_arg4)) shapeCasts_S8x1024_S8x1x1024)) shapeCasts_S32x256x1024_S4x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(((h c).2 main_v4 (Pipeline.mem_restRefs_of main_v4 (by decide) (by decide))).trans ((tail_v4 m c).trans (by rw [tiled_eq]))),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c))⟩)
    (run_main (F := Ideal) m ρ)

end Cert.KernelIdeal.TileValue

end
-- ==== Proof.Bridge.lean ====
/-
  The reference program computes the specification's tiled result.

  Write an index of the result [4,2048,1024] as (a, b, c) and let m = a·2048 + b be its row among the 8192
  token rows.  The reference regroups the rows as [8,1024,·]: row m is row m % 1024 of expert m / 1024.
  The specification regroups them as [32,256,·]: row m is row m % 256 of tile m / 256, whose expert is
  (m / 256) / 4 = m / 1024.  So both read the same row of x and the same expert's weights and biases, and both
  are the closed form `rowOut` below; every reshape is row-major, so each step is an identity between offsets.
-/
import proofs.«150185_g12489764897382_cont_sun_c4_646_23_alg».proof.Proof.Gen.ReferenceIdeal.Read
import proofs.«150185_g12489764897382_cont_sun_c4_646_23_alg».proof.Proof.Spec

noncomputable section

namespace Cert.MlpBridge

open Cert.ReferenceIdeal Cert.ReferenceIdeal.Gen Cert.ReferenceIdeal.Read Cert.MlpSpec
open Idealize.ShloMosaic Idealize.ShloMosaic.ValueIdx

/-- The value both programs produce at row `(a, b)` of `x`, with expert `e`, at column `c`. -/
def rowOut (x : FVec Ideal ⟨3, ![4, 2048, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32) (a : Fin 4) (b : Fin 2048) (e : Fin 8) (c : Fin 1024) : Ideal .f32 :=
  (∑ f : Fin 2048, max ((∑ d : Fin 1024, x (ix3 a b d) * W1 (ix3 e d f)) + b1 (ix2 e f)) zeroF * W2 (ix3 e f c))
    + b2 (ix2 e c)

/-! ## The reference's index maps at explicit coordinates -/

theorem lidx7 (e : Fin 8) (q : Fin 1024) (c : Fin 1024) (f : Fin 2048) :
    lidx_main_v7 (ix3 e q c) f = ix3 e q f := by
  funext t; match t with | ⟨0, _⟩ => rfl | ⟨1, _⟩ => rfl | ⟨2, _⟩ => rfl

theorem ridx7 (e : Fin 8) (q : Fin 1024) (c : Fin 1024) (f : Fin 2048) :
    ridx_main_v7 (ix3 e q c) f = ix3 e f c := by
  funext t; match t with | ⟨0, _⟩ => rfl | ⟨1, _⟩ => rfl | ⟨2, _⟩ => rfl

theorem lidx2 (e : Fin 8) (q : Fin 1024) (f : Fin 2048) (d : Fin 1024) :
    lidx_main_v2 (ix3 e q f) d = ix3 e q d := by
  funext t; match t with | ⟨0, _⟩ => rfl | ⟨1, _⟩ => rfl | ⟨2, _⟩ => rfl

theorem ridx2 (e : Fin 8) (q : Fin 1024) (f : Fin 2048) (d : Fin 1024) :
    ridx_main_v2 (ix3 e q f) d = ix3 e d f := by
  funext t; match t with | ⟨0, _⟩ => rfl | ⟨1, _⟩ => rfl | ⟨2, _⟩ => rfl

/-- The first bias, broadcast twice, is read at `(e, f)`. -/
theorem idx34 (e : Fin 8) (q : Fin 1024) (f : Fin 2048) :
    idx_main_v3 (idx_main_v4 (ix3 e q f)) = ix2 e f := by
  funext t; match t with | ⟨0, _⟩ => rfl | ⟨1, _⟩ => rfl

/-- The second bias, broadcast twice, is read at `(e, c)`. -/
theorem idx89 (e : Fin 8) (q : Fin 1024) (c : Fin 1024) :
    idx_main_v8 (idx_main_v9 (ix3 e q c)) = ix2 e c := by
  funext t; match t with | ⟨0, _⟩ => rfl | ⟨1, _⟩ => rfl

/-- The two reshapes of `x` read row `q` of expert `e` at row `(a, b)` when `e·1024 + q = a·2048 + b`. -/
theorem idx01 (e : Fin 8) (q : Fin 1024) (d : Fin 1024) (a : Fin 4) (b : Fin 2048)
    (h : e.val * 1024 + q.val = a.val * 2048 + b.val) :
    idx_main_v0 (idx_main_v1 (ix3 e q d)) = ix3 a b d := by
  have he := e.isLt; have hq := q.isLt; have hd := d.isLt; have ha := a.isLt; have hb := b.isLt
  funext t
  match t with
  | ⟨0, _⟩ =>
    exact Fin.ext (by
      show (((e.val * 1024 + q.val) * 1024 + d.val) / 1024 * 1024 + ((e.val * 1024 + q.val) * 1024 + d.val) % 1024) / 2097152 = a.val
      omega)
  | ⟨1, _⟩ =>
    exact Fin.ext (by
      show (((e.val * 1024 + q.val) * 1024 + d.val) / 1024 * 1024 + ((e.val * 1024 + q.val) * 1024 + d.val) % 1024) / 1024 % 2048 = b.val
      omega)
  | ⟨2, _⟩ =>
    exact Fin.ext (by
      show (((e.val * 1024 + q.val) * 1024 + d.val) / 1024 * 1024 + ((e.val * 1024 + q.val) * 1024 + d.val) % 1024) % 1024 = d.val
      omega)

/-- The two reshapes of the result read position `(a, b, c)` at row `q` of expert `e` when
    `e·1024 + q = a·2048 + b`. -/
theorem idx1112 (a : Fin 4) (b : Fin 2048) (c : Fin 1024) (e : Fin 8) (q : Fin 1024)
    (h : e.val * 1024 + q.val = a.val * 2048 + b.val) :
    idx_main_v11 (idx_main_v12 (ix3 a b c)) = ix3 e q c := by
  have he := e.isLt; have hq := q.isLt; have hc := c.isLt; have ha := a.isLt; have hb := b.isLt
  funext t
  match t with
  | ⟨0, _⟩ =>
    exact Fin.ext (by
      show (((a.val * 2048 + b.val) * 1024 + c.val) / 1024 * 1024 + ((a.val * 2048 + b.val) * 1024 + c.val) % 1024) / 1048576 = e.val
      omega)
  | ⟨1, _⟩ =>
    exact Fin.ext (by
      show (((a.val * 2048 + b.val) * 1024 + c.val) / 1024 * 1024 + ((a.val * 2048 + b.val) * 1024 + c.val) % 1024) / 1024 % 1024 = q.val
      omega)
  | ⟨2, _⟩ =>
    exact Fin.ext (by
      show (((a.val * 2048 + b.val) * 1024 + c.val) / 1024 * 1024 + ((a.val * 2048 + b.val) * 1024 + c.val) % 1024) % 1024 = c.val
      omega)

/-! ## The reference before its last two reshapes -/

/-- The reference's [8,1024,1024] result at row `q` of expert `e` is the closed form at the row `(a, b)` of `x`
    with the same row-major position. -/
theorem ref_at (x : FVec Ideal ⟨3, ![4, 2048, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32) (e : Fin 8) (q : Fin 1024) (c : Fin 1024) (a : Fin 4) (b : Fin 2048)
    (h : e.val * 1024 + q.val = a.val * 2048 + b.val) :
    val_main_v10 (F := Ideal) x W1 b1 W2 b2 (ix3 e q c) = rowOut x W1 b1 W2 b2 a b e c := by
  rw [val_main_v10_apply, val_main_v7_apply, val_main_v9_apply, val_main_v8_apply, idx89]
  unfold rowOut
  refine congrArg (· + b2 (ix2 e c)) (Finset.sum_congr rfl fun f _ => ?_)
  rw [lidx7, ridx7, val_main_v6_apply, val_main_call0_v0_apply, val_main_call0_cst_apply, val_main_v5_apply,
    val_main_v2_apply, val_main_v4_apply, val_main_v3_apply, idx34]
  refine congrArg (fun t => max (t + b1 (ix2 e f)) zeroF * W2 (ix3 e f c)) (Finset.sum_congr rfl fun d _ => ?_)
  rw [lidx2, ridx2, val_main_v1_apply, val_main_v0_apply, idx01 e q d a b h]

/-! ## The specification at a tile row -/

/-- The specification's result at row `r` of tile `s`, fed the re-laid inputs, is the closed form at the row
    `(a, b)` of `x` with the same row-major position and at the tile's expert. -/
theorem spec_at (x : FVec Ideal ⟨3, ![4, 2048, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32)
    (hx : (⟨3, ![4, 2048, 1024]⟩ : Shape).ShapeCasts ⟨3, ![32, 256, 1024]⟩)
    (hb1 : (⟨2, ![8, 2048]⟩ : Shape).ShapeCasts ⟨3, ![8, 1, 2048]⟩)
    (hb2 : (⟨2, ![8, 1024]⟩ : Shape).ShapeCasts ⟨3, ![8, 1, 1024]⟩)
    (s : Fin 32) (r : Fin 256) (c : Fin 1024) (a : Fin 4) (b : Fin 2048)
    (h : s.val * 256 + r.val = a.val * 2048 + b.val) :
    tileOutAt (shapeCast _ x hx) W1 (shapeCast _ b1 hb1) W2 (shapeCast _ b2 hb2) s r c
      = rowOut x W1 b1 W2 b2 a b (expertOf s) c := by
  have hs := s.isLt; have hr := r.isLt; have ha := a.isLt; have hb := b.isLt
  have hxr : ∀ d : Fin 1024, shapeCast (⟨3, ![32, 256, 1024]⟩ : Shape) x hx (ix3 s r d) = x (ix3 a b d) := fun d =>
    shapeCast_apply x hx (ix3 s r d) (ix3 a b d) (by
      rewrite [Shape.rowMajor_val_three, Shape.rowMajor_val_three]
      show (a.val * 2048 + b.val) * 1024 + d.val = (s.val * 256 + r.val) * 1024 + d.val
      omega)
  have hb1r : ∀ f : Fin 2048, shapeCast (⟨3, ![8, 1, 2048]⟩ : Shape) b1 hb1 (ix3 (expertOf s) 0 f) = b1 (ix2 (expertOf s) f) := fun f =>
    shapeCast_apply b1 hb1 (ix3 (expertOf s) 0 f) (ix2 (expertOf s) f) (by
      rewrite [Shape.rowMajor_val_two, Shape.rowMajor_val_three]
      show (expertOf s).val * 2048 + f.val = ((expertOf s).val * 1 + 0) * 2048 + f.val
      omega)
  have hb2r : shapeCast (⟨3, ![8, 1, 1024]⟩ : Shape) b2 hb2 (ix3 (expertOf s) 0 c) = b2 (ix2 (expertOf s) c) :=
    shapeCast_apply b2 hb2 (ix3 (expertOf s) 0 c) (ix2 (expertOf s) c) (by
      rewrite [Shape.rowMajor_val_two, Shape.rowMajor_val_three]
      show (expertOf s).val * 1024 + c.val = ((expertOf s).val * 1 + 0) * 1024 + c.val
      omega)
  unfold tileOutAt MlpSpec.hidden rowOut
  rw [hb2r]
  refine congrArg (· + b2 (ix2 (expertOf s) c)) (Finset.sum_congr rfl fun f _ => ?_)
  rw [hb1r f]
  refine congrArg (fun t => max (t + b1 (ix2 (expertOf s) f)) zeroF * W2 (ix3 (expertOf s) f c))
    (Finset.sum_congr rfl fun d _ => ?_)
  rw [hxr d]

/-! ## The two results agree -/

/-- The reference's result is the specification's tiled result re-laid row-major into [4,2048,1024]. -/
theorem result_eq (x : FVec Ideal ⟨3, ![4, 2048, 1024]⟩ .f32) (W1 : FVec Ideal ⟨3, ![8, 1024, 2048]⟩ .f32)
    (b1 : FVec Ideal ⟨2, ![8, 2048]⟩ .f32) (W2 : FVec Ideal ⟨3, ![8, 2048, 1024]⟩ .f32)
    (b2 : FVec Ideal ⟨2, ![8, 1024]⟩ .f32)
    (hx : (⟨3, ![4, 2048, 1024]⟩ : Shape).ShapeCasts ⟨3, ![32, 256, 1024]⟩)
    (hb1 : (⟨2, ![8, 2048]⟩ : Shape).ShapeCasts ⟨3, ![8, 1, 2048]⟩)
    (hb2 : (⟨2, ![8, 1024]⟩ : Shape).ShapeCasts ⟨3, ![8, 1, 1024]⟩)
    (hout : (⟨3, ![32, 256, 1024]⟩ : Shape).ShapeCasts ⟨3, ![4, 2048, 1024]⟩) [Cert.ReferenceIdeal.Facts] :
    shapeCast _ (tileOut (shapeCast _ x hx) W1 (shapeCast _ b1 hb1) W2 (shapeCast _ b2 hb2)) hout
      = val_main_v12 (F := Ideal) x W1 b1 W2 b2 := by
  funext i
  obtain ⟨a, b, c, rfl⟩ : ∃ a b c, i = ix3 a b c := ⟨i 0, i 1, i 2, eq_ix3 i⟩
  have ha := a.isLt; have hb := b.isLt; have hc := c.isLt
  -- the tile, the row inside it, and the row inside the expert, of the row a·2048 + b
  obtain ⟨s, hs⟩ : ∃ s : Fin 32, s.val = (a.val * 2048 + b.val) / 256 := ⟨⟨_, by omega⟩, rfl⟩
  obtain ⟨r, hr⟩ : ∃ r : Fin 256, r.val = (a.val * 2048 + b.val) % 256 := ⟨⟨_, by omega⟩, rfl⟩
  obtain ⟨q, hq⟩ : ∃ q : Fin 1024, q.val = (a.val * 2048 + b.val) % 1024 := ⟨⟨_, by omega⟩, rfl⟩
  have hsr : s.val * 256 + r.val = a.val * 2048 + b.val := by omega
  have heq : (expertOf s).val * 1024 + q.val = a.val * 2048 + b.val := by rw [expertOf_val]; omega
  have hL : shapeCast (⟨3, ![4, 2048, 1024]⟩ : Shape)
      (tileOut (shapeCast _ x hx) W1 (shapeCast _ b1 hb1) W2 (shapeCast _ b2 hb2)) hout (ix3 a b c)
      = tileOut (shapeCast _ x hx) W1 (shapeCast _ b1 hb1) W2 (shapeCast _ b2 hb2) (ix3 s r c) :=
    shapeCast_apply _ hout (ix3 a b c) (ix3 s r c) (by
      rewrite [Shape.rowMajor_val_three, Shape.rowMajor_val_three]
      show (s.val * 256 + r.val) * 1024 + c.val = (a.val * 2048 + b.val) * 1024 + c.val
      omega)
  rw [hL, tileOut_apply, spec_at x W1 b1 W2 b2 hx hb1 hb2 s r c a b hsr, val_main_v12_apply, val_main_v11_apply,
    idx1112 a b c (expertOf s) q heq, ref_at x W1 b1 W2 b2 (expertOf s) q c a b heq]

end Cert.MlpBridge

end
-- ==== Proof.lean ====
/-
  The certificate: an expert-parallel two-layer perceptron, `out[e] = max (x[e] · W1[e] + b1[e]) 0 · W2[e] + b2[e]`
  over eight experts, computed by a software-pipelined kernel — each grid point computes one hidden tile and turns the
  previous point's hidden tile, kept in a two-slot scratch, into one output tile — against the same formula written as
  two batched products.

  * The three frames: the kernel's, at the word-level instance and at the extended reals, by the body obligation at every
    grid point (the scratch's carried slot is the invariant between points); the reference's by its run read back.
  * The idealization rewrote nothing, so its conjunct is trivial.
  * The two programs at the extended reals: the kernel's tiled result array is the specification's `tileOut` of the
    re-laid arguments, and so is the reference's result; neither side rearranges a sum, and no law of the extended
    reals beyond the definitions of the operations is needed, so the finiteness of the inputs is never used.
-/
import proofs.«150185_g12489764897382_cont_sun_c4_646_23_alg».proof.Defs
import proofs.«150185_g12489764897382_cont_sun_c4_646_23_alg».proof.Proof.Gen.Kernel
import proofs.«150185_g12489764897382_cont_sun_c4_646_23_alg».proof.Proof.Gen.KernelIdeal
import proofs.«150185_g12489764897382_cont_sun_c4_646_23_alg».proof.Proof.Gen.ReferenceIdeal
import proofs.«150185_g12489764897382_cont_sun_c4_646_23_alg».proof.Proof.Gen.ReferenceIdeal.Run
import proofs.«150185_g12489764897382_cont_sun_c4_646_23_alg».proof.Proof.Gen.ReferenceIdeal.Read
import proofs.«150185_g12489764897382_cont_sun_c4_646_23_alg».proof.Proof.Gen.Pre_finite_inputs
import proofs.«150185_g12489764897382_cont_sun_c4_646_23_alg».proof.Proof.BitsBody.Data
import proofs.«150185_g12489764897382_cont_sun_c4_646_23_alg».proof.Proof.IdealBody.Data
import proofs.«150185_g12489764897382_cont_sun_c4_646_23_alg».proof.Proof.IdealBody.Result
import proofs.«150185_g12489764897382_cont_sun_c4_646_23_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Body.frame m ρ

/-- So does the kernel read at the extended reals. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the specification's result of the arguments. -/
theorem algebraic : Cert.algebraic_KernelIdeal_ReferenceIdeal := by
  intro m ρ m' ρ' _ hagree
  refine ⟨fun c => Cert.ReferenceIdeal.Read.val_main_v12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.TileValue.run m ρ)
    exact Cert.MlpBridge.result_eq _ _ _ _ _ _ _ _ _
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v12_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
